-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x256 : Shape := ⟨3, ![8, 32768, 256]⟩
abbrev S128x128 : Shape := ⟨2, ![128, 128]⟩
abbrev S_ : Shape := ⟨0, ![]⟩

class Facts : Prop where
  bcast_S_S8x32768x256 : S_.BroadcastsInDim S8x32768x256 (![] : Fin 0 → Fin S8x32768x256.rank)
  reducesTo_S8x32768x256_S_d0_1_2 : S8x32768x256.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x32768x256 .f32) (main_arg1 : FVec F S128x128 .f32) : IVec S_ 1 :=
  let main_v0 : FVec F S8x32768x256 .f32 := Host.absf main_arg0
  let main_cst : FVec F S_ .f32 := constant S_ .f32 0x7F800000#32
  let main_v1 : FVec F S8x32768x256 .f32 := broadcastInDim S8x32768x256 ![] bcast_S_S8x32768x256 main_cst
  let main_v2 : IVec S8x32768x256 1 := cmpf .olt main_v0 main_v1
  let main_c : IVec S_ 1 := constantI S_ 1 1#1
  let main_v3 : IVec S_ 1 := (fun x v => Host.reduce IntOp.andi x v reducesTo_S8x32768x256_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8x32768x256 : Shape := ⟨3, ![8, 32768, 256]⟩
abbrev S128x128 : Shape := ⟨2, ![128, 128]⟩
abbrev S1x4096x256 : Shape := ⟨3, ![1, 4096, 256]⟩
abbrev S4096x256 : Shape := ⟨2, ![4096, 256]⟩
abbrev S4096x128 : Shape := ⟨2, ![4096, 128]⟩

abbrev nBuf : Space → Nat
  | .hbm => 3
  | .vmem => 5
  | .smem => 0
  | _ => 0

abbrev bufTy : (tb : Table) → Fin (tcTables nBuf tb) → BufTy
  | .hbm, ⟨0, _⟩ => ⟨S8x32768x256, .f32⟩
  | .hbm, ⟨1, _⟩ => ⟨S128x128, .f32⟩
  | .hbm, ⟨2, _⟩ => ⟨S8x32768x256, .f32⟩
  | .local _ .vmem, ⟨0, _⟩ => ⟨S1x4096x256, .f32⟩
  | .local _ .vmem, ⟨1, _⟩ => ⟨S1x4096x256, .f32⟩
  | .local _ .vmem, ⟨2, _⟩ => ⟨S128x128, .f32⟩
  | .local _ .vmem, ⟨3, _⟩ => ⟨S1x4096x256, .f32⟩
  | .local _ .vmem, ⟨4, _⟩ => ⟨S1x4096x256, .f32⟩
  | _, _ => ⟨S8x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  slices_S4096x256_o0_0_S4096x128 : S4096x256.Slices ![0, 0] S4096x128
  slices_S4096x256_o0_128_S4096x128 : S4096x256.Slices ![0, 128] S4096x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  concatenates_S4096x128_S4096x128_S4096x256_d1 : Shape.Concatenates [S4096x128, S4096x128] S4096x256 1
  shapeCasts_S4096x256_S1x4096x256 : S4096x256.ShapeCasts S1x4096x256
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x32768x256.size a
  hwx0_0 : ∀ i : grid0.Coords, EltTy.bits .f32 = 32 ∨ (Rect.block (s := S8x32768x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x32768x256.size a
  hwx0_2 : ∀ i : grid0.Coords, EltTy.bits .f32 = 32 ∨ (Rect.block (s := S8x32768x256) S1x4096x256.size (cc0_transform_2 i) (hinb0_2 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32768x256 : Shape := ⟨3, ![8, 32768, 256]⟩
abbrev S128x128 : Shape := ⟨2, ![128, 128]⟩
abbrev S8x32768x128 : Shape := ⟨3, ![8, 32768, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x32768x256, .f32⟩
  | .hbm, ⟨1, _⟩ => ⟨S128x128, .f32⟩
  | .hbm, ⟨2, _⟩ => ⟨S8x32768x128, .f32⟩
  | .hbm, ⟨3, _⟩ => ⟨S8x32768x128, .f32⟩
  | .hbm, ⟨4, _⟩ => ⟨S8x32768x128, .f32⟩
  | .hbm, ⟨5, _⟩ => ⟨S8x32768x128, .f32⟩
  | .hbm, ⟨6, _⟩ => ⟨S8x32768x256, .f32⟩
  | _, _ => ⟨S8x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  slices_S8x32768x256_S8x32768x128_0_0_0 : S8x32768x256.Slices ![0, 0, 0] S8x32768x128
  slices_S8x32768x256_S8x32768x128_0_0_128 : S8x32768x256.Slices ![0, 0, 128] S8x32768x128
  concatenates_S8x32768x128_S8x32768x128_S8x32768x256_d2 : Shape.Concatenates [S8x32768x128, S8x32768x128] S8x32768x256 2
  dot_S8x32768x128_S128x128_S8x32768x128_2_0_01_1_n_n_wf : DotDims.WF S8x32768x128 S128x128 S8x32768x128 [2] [0] [0, 1] [1] [] []

variable [Facts₀]

def dot_S8x32768x128_S128x128_S8x32768x128_2_0_01_1_n_n : DotDims S8x32768x128 S128x128 S8x32768x128 where
  lhsContracting := [2]
  rhsContracting := [0]
  lhsNonContracting := [0, 1]
  rhsNonContracting := [1]
  lhsBatch := []
  rhsBatch := []
  wf := dot_S8x32768x128_S128x128_S8x32768x128_2_0_01_1_n_n_wf

class Facts : Prop extends Facts₀ where

variable [Facts]
-- ==== Proof.BodyCoupled.lean ====
/-
  What the kernel's body computes on one block, entry by entry.

  A block is 4096 consecutive rows of one batch, each row whole (256 entries), held with a leading axis of extent 1.
  The body drops that axis, cuts the rows into the carried half (columns 0..127) and the updated half (columns
  128..255), multiplies the carried half (4096 × 128) by the matrix (128 × 128) into a zero accumulator, adds the
  product to the updated half, joins the carried half and the sum again along the columns and puts the unit axis back.
  The change of float format in front of the product is the identity on the extended reals, and the product into a zero
  accumulator is the plain sum over the contracted index. So entry `(0, r, j)` of what the body stores is
      x0[0, r, j]                                               for j < 128,
      x0[0, r, j] + Σ_{k < 128} x0[0, r, k] · w[k, j - 128]     for j ≥ 128,
  where `x0` is the block and `w` the matrix: row `r` of the result depends on row `r` of the block alone.

  Each operation is read at an index as a lemma about an ARBITRARY operand, and the body's value is their composition.
-/
import proofs.«142568_j87385404605275_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-! ## The body's operations, each on an arbitrary operand -/

/-- A block's rows as a 4096 × 256 matrix: the leading unit axis dropped. -/
def rows (x0 : Vec Ideal S1x4096x256 .f32) : FVec Ideal S4096x256 .f32 :=
  shapeCast S4096x256 x0 shapeCasts_S1x4096x256_S4096x256

/-- The left half of a 4096 × 256 matrix: columns 0..127. -/
def leftHalf (y : FVec Ideal S4096x256 .f32) : FVec Ideal S4096x128 .f32 :=
  extractStridedSlice S4096x128 ![0, 0] y slices_S4096x256_o0_0_S4096x128

/-- The right half of a 4096 × 256 matrix: columns 128..255. -/
def rightHalf (y : FVec Ideal S4096x256 .f32) : FVec Ideal S4096x128 .f32 :=
  extractStridedSlice S4096x128 ![0, 128] y slices_S4096x256_o0_128_S4096x128

/-- A 4096 × 128 matrix times a 128 × 128 matrix, into a zero accumulator; the operands' change of format first. -/
def times (a : FVec Ideal S4096x128 .f32) (w : Vec Ideal S128x128 .f32) : FVec Ideal S4096x128 .f32 :=
  matmul dot_S4096x128_S128x128_S4096x128_1_0_0_1_n_n none (truncf .bf16 a bitsLt_bf16_f32) (truncf .bf16 w bitsLt_bf16_f32)
    (constant S4096x128 .f32 0x00000000#32)

/-- Two 4096 × 128 matrices joined along the columns, a unit axis put in front. -/
def joined (a b : FVec Ideal S4096x128 .f32) : FVec Ideal S1x4096x256 .f32 :=
  shapeCast S1x4096x256 (concatenate S4096x256 1 [⟨S4096x128, a⟩, ⟨S4096x128, b⟩]
    concatenates_S4096x128_S4096x128_S4096x256_d1) shapeCasts_S4096x256_S1x4096x256

/-- The body's stored value is the join of the rows' left half and of their right half plus the left half times the
    matrix: the body's text, its operations named. -/
theorem payload_eq (x0 : Vec Ideal S1x4096x256 .f32) (w : Vec Ideal S128x128 .f32) :
    k0_pay1 (F := Ideal) x0 w
      = joined (leftHalf (rows x0)) (addf (rightHalf (rows x0)) (times (leftHalf (rows x0)) w)) := rfl

/-! ## Each operation at an index -/

/-- Entry `(r, j)` of the rows is entry `(0, r, j)` of the block. -/
theorem rows_apply (x0 : Vec Ideal S1x4096x256 .f32) (z : Fin 1) (r : Fin 4096) (j : Fin 256) :
    rows x0 (ix2 r j) = x0 (ix3 z r j) := by
  unfold rows
  refine (shapeCast_dropUnit_apply ![4096, 256] x0 shapeCasts_S1x4096x256_S4096x256 (ix2 r j)).trans ?_
  exact congrArg x0 (funext fun a => by
    match a with
    | ⟨0, _⟩ => exact Fin.ext (by have hz : z.val < 1 := z.isLt; show 0 = z.val; omega)
    | ⟨1, _⟩ => rfl
    | ⟨2, _⟩ => rfl)

/-- Entry `(r, e)` of the left half is entry `(r, e)` of the matrix. -/
theorem leftHalf_apply (y : FVec Ideal S4096x256 .f32) (r : Fin 4096) (e : Fin 128) :
    leftHalf y (ix2 r e) = y (ix2 r (⟨e.val, by have he : e.val < 128 := e.isLt; omega⟩ : Fin 256)) := by
  unfold leftHalf
  exact extractStridedSlice_apply ![0, 0] y slices_S4096x256_o0_0_S4096x128 (ix2 r e)
    (ix2 r (⟨e.val, by have he : e.val < 128 := e.isLt; omega⟩ : Fin 256)) (fun a => match a with
      | ⟨0, _⟩ => by show r.val = 0 + r.val; omega
      | ⟨1, _⟩ => by show e.val = 0 + e.val; omega)

/-- Entry `(r, e)` of the right half is entry `(r, 128 + e)` of the matrix. -/
theorem rightHalf_apply (y : FVec Ideal S4096x256 .f32) (r : Fin 4096) (e : Fin 128) :
    rightHalf y (ix2 r e) = y (ix2 r (⟨128 + e.val, by have he : e.val < 128 := e.isLt; omega⟩ : Fin 256)) := by
  unfold rightHalf
  exact extractStridedSlice_apply ![0, 128] y slices_S4096x256_o0_128_S4096x128 (ix2 r e)
    (ix2 r (⟨128 + e.val, by have he : e.val < 128 := e.isLt; omega⟩ : Fin 256)) (fun a => match a with
      | ⟨0, _⟩ => by show r.val = 0 + r.val; omega
      | ⟨1, _⟩ => by show 128 + e.val = 128 + e.val; rfl)

/-! ### The product's operand indices: output `(r, e)`, contracted index `k`, read `(r, k)` and `(k, e)` -/

theorem lhs_row (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem lhs_contr (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q

theorem rhs_contr (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q

theorem rhs_col (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Entry `(r, e)` of the product is the sum over `k` of the left operand's `(r, k)` times the matrix's `(k, e)`. -/
theorem times_apply (a : FVec Ideal S4096x128 .f32) (w : Vec Ideal S128x128 .f32) (r : Fin 4096) (e : Fin 128) :
    times a w (ix2 r e) = ∑ k : Fin 128, a (ix2 r k) * w (ix2 k e) := by
  unfold times
  refine (Ideal.matmul_constant_zero_apply dot_S4096x128_S128x128_S4096x128_1_0_0_1_n_n none (truncf .bf16 a bitsLt_bf16_f32)
    (truncf .bf16 w bitsLt_bf16_f32) (ix2 r e)).trans ?_
  rw [← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r e) ((ValueIdx.contrEquiv1 dot_S4096x128_S128x128_S4096x128_1_0_0_1_n_n 128 rfl rfl).symm k) = ix2 r k :=
    funext fun a => Fin.ext (by
      match a with
      | ⟨0, _⟩ => exact lhs_row _ _
      | ⟨1, _⟩ => exact (lhs_contr _ _).trans hk)
  have er : dot_S4096x128_S128x128_S4096x128_1_0_0_1_n_n.rhsIdx (ix2 r e) ((ValueIdx.contrEquiv1 dot_S4096x128_S128x128_S4096x128_1_0_0_1_n_n 128 rfl rfl).symm k) = ix2 k e :=
    funext fun a => Fin.ext (by
      match a with
      | ⟨0, _⟩ => exact (rhs_contr _ _).trans hk
      | ⟨1, _⟩ => exact rhs_col _ _)
  rw [el, er]
  rfl

/-- Entry `(0, r, j)` of the join, for `j` below 128, is the first matrix's `(r, j)`. -/
theorem joined_left (a b : FVec Ideal S4096x128 .f32) (z : Fin 1) (r : Fin 4096) (j : Fin 256) (h : j.val < 128) :
    joined a b (ix3 z r j) = a (ix2 r (⟨j.val, h⟩ : Fin 128)) := by
  unfold joined
  refine (shapeCast_addUnit_apply ![4096, 256] (concatenate S4096x256 1 [⟨S4096x128, a⟩, ⟨S4096x128, b⟩]
    concatenates_S4096x128_S4096x128_S4096x256_d1) shapeCasts_S4096x256_S1x4096x256 (ix3 z r j)).trans ?_
  exact concatenate_pair_apply_left (t := S4096x256) (s₁ := S4096x128) (s₂ := S4096x128) 1 a b
    concatenates_S4096x128_S4096x128_S4096x256_d1 (fun d => ix3 z r j d.succ) rfl
    (ix2 r (⟨j.val, h⟩ : Fin 128)) (fun d => match d with
      | ⟨0, _⟩ => rfl
      | ⟨1, _⟩ => rfl)

/-- Entry `(0, r, j)` of the join, for `j` from 128 on, is the second matrix's `(r, j - 128)`. -/
theorem joined_right (a b : FVec Ideal S4096x128 .f32) (z : Fin 1) (r : Fin 4096) (j : Fin 256) (h : ¬j.val < 128) :
    joined a b (ix3 z r j) = b (ix2 r (⟨j.val - 128, by have hj : j.val < 256 := j.isLt; omega⟩ : Fin 128)) := by
  unfold joined
  refine (shapeCast_addUnit_apply ![4096, 256] (concatenate S4096x256 1 [⟨S4096x128, a⟩, ⟨S4096x128, b⟩]
    concatenates_S4096x128_S4096x128_S4096x256_d1) shapeCasts_S4096x256_S1x4096x256 (ix3 z r j)).trans ?_
  exact concatenate_pair_apply_right (t := S4096x256) (s₁ := S4096x128) (s₂ := S4096x128) 1 a b
    concatenates_S4096x128_S4096x128_S4096x256_d1 (fun d => ix3 z r j d.succ) rfl rfl
    (ix2 r (⟨j.val - 128, by have hj : j.val < 256 := j.isLt; omega⟩ : Fin 128)) (fun d hd => match d with
      | ⟨0, _⟩ => rfl
      | ⟨1, _⟩ => absurd rfl hd) (by show j.val - 128 + 128 = j.val; omega)

/-! ## The stored value at an index -/

/-- In the carried half the body stores the block's entry. -/
theorem body_carried (x0 : Vec Ideal S1x4096x256 .f32) (w : Vec Ideal S128x128 .f32) (z : Fin 1) (r : Fin 4096) (j : Fin 256)
    (h : j.val < 128) : k0_pay1 (F := Ideal) x0 w (ix3 z r j) = x0 (ix3 z r j) := by
  rw [payload_eq, joined_left _ _ z r j h, leftHalf_apply]
  exact rows_apply x0 z r _

/-- In the updated half the body stores the block's entry plus the row's carried half against the matrix column. -/
theorem body_updated (x0 : Vec Ideal S1x4096x256 .f32) (w : Vec Ideal S128x128 .f32) (z : Fin 1) (r : Fin 4096) (j : Fin 256)
    (h : ¬j.val < 128) :
    k0_pay1 (F := Ideal) x0 w (ix3 z r j)
      = x0 (ix3 z r j) + ∑ k : Fin 128, x0 (ix3 z r (⟨k.val, by have hk : k.val < 128 := k.isLt; omega⟩ : Fin 256))
          * w (ix2 k (⟨j.val - 128, by have hj : j.val < 256 := j.isLt; omega⟩ : Fin 128)) := by
  rw [payload_eq, joined_right _ _ z r j h, addf_apply, rightHalf_apply, times_apply, rows_apply x0 z]
  refine congr (congrArg (· + ·) (congrArg x0 (funext fun a => ?_))) (Finset.sum_congr rfl fun k _ => ?_)
  · match a with
    | ⟨0, _⟩ => rfl
    | ⟨1, _⟩ => rfl
    | ⟨2, _⟩ => exact Fin.ext (by show 128 + (j.val - 128) = j.val; omega)
  · rw [leftHalf_apply, rows_apply x0 z]

end Cert.KernelIdeal.BodyValue

end
-- ==== Proof.Coupling.lean ====
/-
  The additive coupling of a row's two halves, as ONE function of the two argument arrays.

  A row of `x` has 256 entries: its first 128 (the carried half) and its last 128 (the updated half). The result keeps
  the carried half, and adds to entry `128 + e` of the updated half the inner product of the carried half with column
  `e` of the 128 × 128 matrix `w`:
      y[b, s, j]       = x[b, s, j]                                          for j < 128,
      y[b, s, 128 + e] = x[b, s, 128 + e] + Σ_{k < 128} x[b, s, k] · w[k, e]  for e < 128.
  On the extended reals both programs compute exactly this function: the two differ only in how they cut the rows into
  blocks, and a row's entry depends on that row alone. No law beyond the definition of the sum is used, so nothing here
  asks the entries to be finite.
-/
import Idealize.ShloMosaic.PureOps.Ideal
import Idealize.ShloMosaic.Lib.ValueIdx

noncomputable section

namespace Cert.Coupling

open Idealize.ShloMosaic

/-- The shape of `x` and of the result: 8 batches of 32768 rows of 256 entries. -/
abbrev SX : Shape := ⟨3, ![8, 32768, 256]⟩
/-- The shape of the matrix. -/
abbrev SW : Shape := ⟨2, ![128, 128]⟩

/-- Entry `k` of the carried half of the row in which the index `i` lies. -/
abbrev carried (i : SX.Idx) (k : Fin 128) : SX.Idx := fun a => match a with
  | ⟨0, _⟩ => ⟨(i 0).val, (i 0).isLt⟩
  | ⟨1, _⟩ => ⟨(i 1).val, (i 1).isLt⟩
  | ⟨2, _⟩ => ⟨k.val, by have hk : k.val < 128 := k.isLt; show k.val < 256; omega⟩

/-- Entry `k` of the matrix column that feeds entry `i 2` of the updated half: column `i 2 - 128`. -/
abbrev column (i : SX.Idx) (k : Fin 128) : SW.Idx := fun a => match a with
  | ⟨0, _⟩ => ⟨k.val, k.isLt⟩
  | ⟨1, _⟩ => ⟨(i 2).val - 128, by have h2 : (i 2).val < 256 := (i 2).isLt; show (i 2).val - 128 < 128; omega⟩

/-- The coupling: the carried half unchanged, the updated half plus the carried half times the matrix. -/
def coupled (x : FVec Ideal SX .f32) (w : FVec Ideal SW .f32) : FVec Ideal SX .f32 := fun i =>
  if (i 2).val < 128 then x i else x i + ∑ k : Fin 128, x (carried i k) * w (column i k)

/-- In the carried half the result is `x`. -/
theorem coupled_carried (x : FVec Ideal SX .f32) (w : FVec Ideal SW .f32) (i : SX.Idx) (h : (i 2).val < 128) :
    coupled x w i = x i := if_pos h

/-- In the updated half the result is `x` plus the row's carried half against the matrix column. -/
theorem coupled_updated (x : FVec Ideal SX .f32) (w : FVec Ideal SW .f32) (i : SX.Idx) (h : ¬(i 2).val < 128) :
    coupled x w i = x i + ∑ k : Fin 128, x (carried i k) * w (column i k) := if_neg h

end Cert.Coupling

end
-- ==== Proof.BlockCoupled.lean ====
/-
  One block's stored value is the coupling, read where the block sits in the array.

  Let `X` be the whole array and `W` the matrix, `x0` a block of 4096 whole rows and `w` the matrix as the body loads
  them. Take an entry `y` of the block and the array index `i` it is written to, and suppose only this: `i` has `y`'s
  column, every entry of `y`'s row in the block is the entry of `i`'s row in `X` with the same column, and `w` is `W`.
  Then what the body stores at `y` is the coupling of `X` and `W` at `i`. The reason is that both read one row only: the
  stored entry reads row `y 1` of the block, the coupling reads row `(i 0, i 1)` of `X`, and these rows agree entry by
  entry; the sums over the contracted index then agree term by term.
-/
import proofs.«142568_j87385404605275_1_alg».proof.Proof.BodyCoupled
import proofs.«142568_j87385404605275_1_alg».proof.Proof.Coupling

noncomputable section

namespace Cert.KernelIdeal.BodyValue

open Cert.KernelIdeal Cert.KernelIdeal.Gen Idealize.ShloMosaic Idealize.ShloMosaic.ValueIdx Cert.Coupling

/-- Entry `j` of the row of the array in which the index `i` lies. -/
abbrev rowEntry (i : SX.Idx) (j : Fin 256) : SX.Idx := fun a => match a with
  | ⟨0, _⟩ => ⟨(i 0).val, (i 0).isLt⟩
  | ⟨1, _⟩ => ⟨(i 1).val, (i 1).isLt⟩
  | ⟨2, _⟩ => ⟨j.val, j.isLt⟩

/-- The carried half's entry `k` of `i`'s row is the row's entry `k`. -/
theorem carried_eq_rowEntry (i : SX.Idx) (k : Fin 128) :
    carried i k = rowEntry i (⟨k.val, by have hk : k.val < 128 := k.isLt; omega⟩ : Fin 256) :=
  funext fun a => Fin.ext (by
    match a with
    | ⟨0, _⟩ => rfl
    | ⟨1, _⟩ => rfl
    | ⟨2, _⟩ => rfl)

/-- The body's stored entry at `y` is the coupling at the array index `i` that has `y`'s column and whose row in the
    array is `y`'s row in the block. -/
theorem block_coupled (X : FVec Ideal SX .f32) (W : FVec Ideal SW .f32)
    (x0 : Vec Ideal S1x4096x256 .f32) (w : Vec Ideal S128x128 .f32) (y : S1x4096x256.Idx) (i : SX.Idx)
    (hcol : (i 2).val = (y 2).val)
    (hx : ∀ j : Fin 256, x0 (ix3 (y 0) (y 1) j) = X (rowEntry i j))
    (hw : ∀ k e : Fin 128, w (ix2 k e) = W (ix2 k e)) :
    k0_pay1 (F := Ideal) x0 w y = coupled X W i := by
  refine (congrArg (k0_pay1 (F := Ideal) x0 w) (eq_ix3 y)).trans ?_
  have hi : rowEntry i (y 2) = i := funext fun a => Fin.ext (by
    match a with
    | ⟨0, _⟩ => rfl
    | ⟨1, _⟩ => rfl
    | ⟨2, _⟩ => exact hcol.symm)
  by_cases h : (y 2).val < 128
  · -- the carried half: the block's entry, which is the array's
    have h' : (i 2).val < 128 := by omega
    exact ((body_carried x0 w (y 0) (y 1) (y 2) h).trans ((hx (y 2)).trans (congrArg X hi))).trans
      (coupled_carried X W i h').symm
  · -- the updated half: the block's entry plus the row's carried half against the column, term by term the array's
    have h' : ¬(i 2).val < 128 := by omega
    refine ((body_updated x0 w (y 0) (y 1) (y 2) h).trans ?_).trans (coupled_updated X W i h').symm
    refine congr (congrArg (· + ·) ((hx (y 2)).trans (congrArg X hi))) (Finset.sum_congr rfl fun k _ => ?_)
    refine congr (congrArg (· * ·) ((hx _).trans (congrArg X (carried_eq_rowEntry i k).symm)))
      ((hw _ _).trans (congrArg W ?_))
    exact funext fun a => Fin.ext (by
      match a with
      | ⟨0, _⟩ => rfl
      | ⟨1, _⟩ => show (y 2).val - 128 = (i 2).val - 128; rw [hcol])

end Cert.KernelIdeal.BodyValue

end
-- ==== Proof.ArrayCoupled.lean ====
/-
  The kernel's result array is the coupling of its two argument arrays.

  The kernel walks a grid of 8 × 8 points. Point `(b, s)` stages the block of `x` made of batch `b`'s rows
  `4096 s .. 4096 s + 4095`, each row whole, and the whole matrix, and writes the body's result back to the same block of
  the result array. So the block an entry is written to and the block its row is read from are one block: an entry
  `(0, r, j)` of the body's result lands at the array index `(b, 4096 s + r, j)`, and row `r` of the staged block is row
  `(b, 4096 s + r)` of `x`. By the per-block lemma every point therefore writes back the coupling's own block. The 64
  blocks cover the array (row `R` of batch `b` lies in the block of the point `(b, R / 4096)`), so after the run the
  result array is the coupling everywhere.
-/
import proofs.«142568_j87385404605275_1_alg».proof.Proof.Gen.KernelIdeal.Value
import proofs.«142568_j87385404605275_1_alg».proof.Proof.BlockCoupled

noncomputable section

namespace Cert.KernelIdeal.CoupledValue

open Cert.KernelIdeal Cert.KernelIdeal.Gen Idealize.ShloMosaic Idealize.ShloMosaic.TcCoe Idealize.SL.Sem
open Idealize.ShloMosaic.ValueIdx Cert.Coupling Cert.KernelIdeal.BodyValue
open Idealize.ShloMosaic.Pipeline (Dat)

variable (m : (ℓ : Loc nD τ sig) → Buf (Elt Ideal) ℓ) (ρ : Dev nD → PrngReg)

/-! ## The grid's block indices -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- At every point the block of `x` that is staged has the block index of the result block that is written back, both
    take whole rows (column block 0), and the matrix is staged whole (block (0, 0)): decided over the 64 points. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 2) = 0
    ∧ win0_1.index t (1 : Fin 2) = 0 :=
  (by decide +kernel : ∀ t : Fin grid0.N, _)

/-- Every pair of a batch and a row block is some point's result block. -/
theorem block_onto : ∀ (q0 q1 : Fin 8), ∃ t : Fin cfg0.N, win0_2.index t = ![q0.val, q1.val, 0] :=
  (by decide +kernel : ∀ (q0 q1 : Fin 8), ∃ t : Fin grid0.N, win0_2.index t = ![q0.val, q1.val, 0])

/-! ## What a point writes back -/

/-- What point `t` writes back is block `t` of the coupling of the argument arrays. -/
theorem flushed_coupled (c : Dev nD) (t : Fin cfg0.N) :
    (dats m 0 c).flushed 2 t
      = ((cfg0.win 2).blk t).view.read (Elt Ideal) (coupled (V m c main_arg0) (V m c main_arg1)) := by
  rw [Value.flushed2]
  unfold out0_2
  rw [View.canon_unit_zero zeros3]
  simp only [View.ld_unit_zero (S := S1x4096x256) zeros3, View.ld_unit_zero (S := S128x128) zeros2]
  obtain ⟨e00, e01, e02, e22, e10, e11⟩ := block_indices t
  funext y
  show k0_pay1 (F := Ideal) (iblk m c 0 t) (iblk m c 1 t) y
    = coupled (V m c main_arg0) (V m c main_arg1) (((cfg0.win 2).blk t).view.emb y)
  refine block_coupled (V m c main_arg0) (V m c main_arg1) (iblk m c 0 t) (iblk m c 1 t) y
    (((cfg0.win 2).blk t).view.emb y) ?_ ?_ ?_
  · -- the column: the result block takes whole rows
    show win0_2.index t (2 : Fin 3) * 256 + 1 * (y 2).val = (y 2).val
    omega
  · -- the row: the staged block of `x` and the result block sit at one place
    intro j
    show V m c main_arg0 (((cfg0.win 0).blk t).view.emb (ix3 (y 0) (y 1) j))
      = V m c main_arg0 (rowEntry (((cfg0.win 2).blk t).view.emb y) j)
    refine congrArg (V m c main_arg0) (funext fun a => Fin.ext ?_)
    match a with
    | ⟨0, _⟩ =>
      show win0_0.index t (0 : Fin 3) * 1 + 1 * (y 0).val = win0_2.index t (0 : Fin 3) * 1 + 1 * (y 0).val
      omega
    | ⟨1, _⟩ =>
      show win0_0.index t (1 : Fin 3) * 4096 + 1 * (y 1).val = win0_2.index t (1 : Fin 3) * 4096 + 1 * (y 1).val
      omega
    | ⟨2, _⟩ =>
      show win0_0.index t (2 : Fin 3) * 256 + 1 * j.val = j.val
      omega
  · -- the matrix is staged whole
    intro k e
    show V m c main_arg1 (((cfg0.win 1).blk t).view.emb (ix2 k e)) = V m c main_arg1 (ix2 k e)
    refine congrArg (V m c main_arg1) (funext fun a => Fin.ext ?_)
    match a with
    | ⟨0, _⟩ =>
      show win0_1.index t (0 : Fin 2) * 128 + 1 * k.val = k.val
      omega
    | ⟨1, _⟩ =>
      show win0_1.index t (1 : Fin 2) * 128 + 1 * e.val = e.val
      omega

/-! ## The blocks cover the array -/

/-- An index of the array is in point `t`'s result block iff each coordinate is in the block's range on its axis. -/
theorem mem_block (t : Fin cfg0.N) (i : S8x32768x256.Idx) :
    i ∈ ((cfg0.win 2).blk t).view.set ↔ ∀ a : Fin 3, win0_2.index t a * S1x4096x256.size a ≤ (i a).val
      ∧ (i a).val < win0_2.index t a * S1x4096x256.size a + S1x4096x256.size a := by
  show i ∈ ((View.whole main_v0).slice (win0_2.rect t)).set ↔ _
  rw [View.set_slice_whole, Rect.mem_set_unit]
  exact Iff.rfl

/-- Every index of the array is in some point's result block: batch `i 0`, row block `i 1 / 4096`. -/
theorem covered (i : S8x32768x256.Idx) :
    ∃ t : Fin cfg0.N, (cfg0.win 2).flush t = true ∧ i ∈ ((cfg0.win 2).blk t).view.set := by
  have hi0 : (i 0).val < 8 := (i 0).isLt
  have hi1 : (i 1).val < 32768 := (i 1).isLt
  have hi2 : (i 2).val < 256 := (i 2).isLt
  obtain ⟨t, ht⟩ := block_onto ⟨(i 0).val, hi0⟩ ⟨(i 1).val / 4096, by omega⟩
  have q0 : win0_2.index t (0 : Fin 3) = (i 0).val := congrFun ht 0
  have q1 : win0_2.index t (1 : Fin 3) = (i 1).val / 4096 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 4096 ≤ (i 1).val ∧ (i 1).val < win0_2.index t (1 : Fin 3) * 4096 + 4096
    omega
  | ⟨2, _⟩ =>
    show win0_2.index t (2 : Fin 3) * 256 ≤ (i 2).val ∧ (i 2).val < win0_2.index t (2 : Fin 3) * 256 + 256
    omega

/-! ## The array after the run, and the run -/

/-- After the run the result array is the coupling of the argument arrays as launched. -/
theorem final_coupled (c : Dev nD) :
    (dats m 0 c).arrAt 2 cfg0.N
      = coupled (m ((c : Thread nD τ).loc main_arg0)) (m ((c : Thread nD τ).loc main_arg1)) :=
  (dats m 0 c).arrAt_eq_of_cover 2 (coupled (V m c main_arg0) (V m c main_arg1))
    (fun t _ => flushed_coupled m c t) covered

/-- Every weakly fair execution of the kernel's program terminates with the result array at the coupling of the
    arguments, the arguments unchanged. -/
theorem run : θ_run defs (onTc (τ := τ) (main (F := Ideal))) ⟨m, fun _ => 0, ρ⟩ fun r => ∀ c : Dev nD,
      r.2.mem ((c : Thread nD τ).loc main_v0)
        = coupled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_coupled m c), (h c).2⟩)
    (Value.run_blocks m ρ)

end Cert.KernelIdeal.CoupledValue

end
-- ==== Proof.RefCoupled.lean ====
/-
  The reference computes the coupling.

  The reference cuts `x` along its last axis into the carried half (columns 0..127) and the updated half (columns
  128..255), contracts the carried half with the matrix over its last axis, adds the product to the updated half and
  joins the carried half and that sum again along the last axis. Read at an index `i` of the result: if `i`'s last
  coordinate is below 128 the entry comes from the first piece of the join, which is `x` at `i`; otherwise it comes from
  the second piece at last coordinate `i 2 - 128`, which is `x` at `i` (the offset 128 put back) plus the sum over `k` of
  `x` at `(i 0, i 1, k)` times the matrix at `(k, i 2 - 128)`. That is the coupling's definition.
-/
import proofs.«142568_j87385404605275_1_alg».proof.Proof.Gen.ReferenceIdeal.Read
import proofs.«142568_j87385404605275_1_alg».proof.Proof.Coupling

noncomputable section

namespace Cert.ReferenceIdeal.RefValue

open Cert.ReferenceIdeal Cert.ReferenceIdeal.Gen Cert.ReferenceIdeal.Read Idealize.ShloMosaic Cert.Coupling

/-- The index of a half-width array with the coordinates of `i`, for `i` in the carried half. -/
abbrev halfLo (i : S8x32768x256.Idx) (h : (i 2).val < 128) : S8x32768x128.Idx := fun a => match a with
  | ⟨0, _⟩ => ⟨(i 0).val, (i 0).isLt⟩
  | ⟨1, _⟩ => ⟨(i 1).val, (i 1).isLt⟩
  | ⟨2, _⟩ => ⟨(i 2).val, h⟩

/-- The index of a half-width array with the coordinates of `i`, the last one 128 less: where the join reads its second
    piece for `i` in the updated half. -/
abbrev halfHi (i : S8x32768x256.Idx) : S8x32768x128.Idx := fun a => match a with
  | ⟨0, _⟩ => ⟨(i 0).val, (i 0).isLt⟩
  | ⟨1, _⟩ => ⟨(i 1).val, (i 1).isLt⟩
  | ⟨2, _⟩ => ⟨(i 2).val - 128, by have h2 : (i 2).val < 256 := (i 2).isLt; show (i 2).val - 128 < 128; omega⟩

/-- The reference's last stage, as a function of the two arguments, is the coupling. -/
theorem reference_coupled (x : (⟨S8x32768x256, .f32⟩ : BufTy).Contents (Elt Ideal)) (w : (⟨S128x128, .f32⟩ : BufTy).Contents (Elt Ideal)) :
    val_main_v4 (F := Ideal) x w = coupled x w := by
  funext i
  by_cases h : (i 2).val < 128
  · -- the carried half: the join's first piece, the slice at offset 0
    rw [coupled_carried x w i h]
    unfold val_main_v4
    refine (concatenate_pair_apply_left (t := S8x32768x256) (s₁ := S8x32768x128) (s₂ := S8x32768x128) _ _ _ _ i rfl (halfLo i h) (fun b => by
      match b with
      | ⟨0, _⟩ => rfl
      | ⟨1, _⟩ => rfl
      | ⟨2, _⟩ => rfl)).trans ?_
    rw [val_main_v0_apply]
    exact congrArg x (funext fun a => Fin.ext (by
      match a with
      | ⟨0, _⟩ => rfl
      | ⟨1, _⟩ => rfl
      | ⟨2, _⟩ => rfl))
  · -- the updated half: the join's second piece, the slice at offset 128 plus the contraction
    rw [coupled_updated x w i h]
    unfold val_main_v4
    refine (concatenate_pair_apply_right (t := S8x32768x256) (s₁ := S8x32768x128) (s₂ := S8x32768x128) _ _ _ _ i rfl rfl (halfHi i) (fun b hb => by
      match b with
      | ⟨0, _⟩ => rfl
      | ⟨1, _⟩ => rfl
      | ⟨2, _⟩ => exact absurd rfl hb) (by
        show (i 2).val - 128 + 128 = (i 2).val; omega)).trans ?_
    rw [val_main_v3_apply, val_main_v1_apply, val_main_v2_apply]
    simp only [val_main_v0_apply, Ideal.addf_def]
    have e1 : idx_main_v1 (halfHi i) = i := funext fun a => Fin.ext (by
      match a with
      | ⟨0, _⟩ => rfl
      | ⟨1, _⟩ => rfl
      | ⟨2, _⟩ => show 128 + ((i 2).val - 128) = (i 2).val; omega)
    have e2 : ∀ k : Fin 128, idx_main_v0 (lidx_main_v2 (halfHi i) k) = carried i k := fun k => funext fun a => Fin.ext (by
      match a with
      | ⟨0, _⟩ => rfl
      | ⟨1, _⟩ => rfl
      | ⟨2, _⟩ => rfl)
    have e3 : ∀ k : Fin 128, ridx_main_v2 (halfHi i) k = column i k := fun k => funext fun a => Fin.ext (by
      match a with
      | ⟨0, _⟩ => rfl
      | ⟨1, _⟩ => rfl)
    rw [e1]
    simp only [e2, e3]

end Cert.ReferenceIdeal.RefValue

end
-- ==== Proof.lean ====
/-
  The additive coupling kernel against its reference: the certificate's five claims.

  Both programs take an array `x` of 8 × 32768 rows of 256 entries and a 128 × 128 matrix `w`, and return `x` with the
  second half of every row increased by the first half of that row times `w`:
      y[b, s, j]       = x[b, s, j]                                          for j < 128,
      y[b, s, 128 + e] = x[b, s, 128 + e] + Σ_{k < 128} x[b, s, k] · w[k, e]  for e < 128
  (`Cert.Coupling.coupled`). The kernel computes it block by block, 4096 whole rows of one batch at a time, with the
  product taken on operands whose change of float format is the identity on the extended reals; the reference computes
  it on the whole arrays with one contraction. A row's result depends on that row alone, so the cut into blocks does not
  matter, and entry by entry the two sums have the same terms in the same order: the two results are equal as extended
  reals with no appeal to finiteness of the inputs.

  The three frame claims are the generated frames (for the reference, its generated run with the result dropped). The
  kernel's idealization rewrote nothing, so that claim is `True`. The algebraic claim sets the kernel's run
  (`Cert.KernelIdeal.CoupledValue.run`: the result array is the coupling of the arguments) beside the reference's run
  (its composed term is the coupling: `Cert.ReferenceIdeal.RefValue.reference_coupled`) on arguments that agree.
-/
import proofs.«142568_j87385404605275_1_alg».proof.Defs
import proofs.«142568_j87385404605275_1_alg».proof.Proof.Gen.Kernel
import proofs.«142568_j87385404605275_1_alg».proof.Proof.Gen.Kernel.Skeleton
import proofs.«142568_j87385404605275_1_alg».proof.Proof.Gen.Kernel.Launch
import proofs.«142568_j87385404605275_1_alg».proof.Proof.Gen.Kernel.Points
import proofs.«142568_j87385404605275_1_alg».proof.Proof.Gen.Kernel.Frame
import proofs.«142568_j87385404605275_1_alg».proof.Proof.Gen.KernelIdeal
import proofs.«142568_j87385404605275_1_alg».proof.Proof.Gen.KernelIdeal.Skeleton
import proofs.«142568_j87385404605275_1_alg».proof.Proof.Gen.KernelIdeal.Launch
import proofs.«142568_j87385404605275_1_alg».proof.Proof.Gen.KernelIdeal.Points
import proofs.«142568_j87385404605275_1_alg».proof.Proof.Gen.KernelIdeal.Frame
import proofs.«142568_j87385404605275_1_alg».proof.Proof.Gen.ReferenceIdeal
import proofs.«142568_j87385404605275_1_alg».proof.Proof.Gen.Pre_finite_inputs
import proofs.«142568_j87385404605275_1_alg».proof.Proof.Gen.KernelIdeal.Value
import proofs.«142568_j87385404605275_1_alg».proof.Proof.Gen.ReferenceIdeal.Run
import proofs.«142568_j87385404605275_1_alg».proof.Proof.Gen.ReferenceIdeal.Read
import proofs.«142568_j87385404605275_1_alg».proof.Proof.ArrayCoupled
import proofs.«142568_j87385404605275_1_alg».proof.Proof.RefCoupled
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The idealized reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals, from memories that agree on `x` and `w`, the kernel's result array and the reference's result
    are both the coupling of `x` and `w`. -/
theorem algebraic : Cert.algebraic_KernelIdeal_ReferenceIdeal := by
  intro m ρ m' ρ' _ hagree
  refine ⟨_, Cert.KernelIdeal.CoupledValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_coupled,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
